-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : FVec F S11008x4096 .f32) (main_arg2 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S11008x4096 : Shape := ⟨2, ![11008, 4096]⟩
abbrev S11008 : Shape := ⟨1, ![11008]⟩
abbrev S4096x11008 : Shape := ⟨2, ![4096, 11008]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S8192x11008 : Shape := ⟨2, ![8192, 11008]⟩
abbrev S2048x4096 : Shape := ⟨2, ![2048, 4096]⟩
abbrev S2048x256 : Shape := ⟨2, ![2048, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S4096x11008, .bf16⟩
  | .hbm, ⟨4, _⟩ => ⟨S8192x4096, .bf16⟩
  | .hbm, ⟨5, _⟩ => ⟨S8192x11008, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S4096x256, .bf16⟩
  | .local _ .vmem, ⟨4, _⟩ => ⟨S2048x4096, .bf16⟩
  | .local _ .vmem, ⟨5, _⟩ => ⟨S2048x4096, .bf16⟩
  | .local _ .vmem, ⟨6, _⟩ => ⟨S4096x256, .bf16⟩
  | .local _ .vmem, ⟨7, _⟩ => ⟨S4096x256, .bf16⟩
  | .local _ .vmem, ⟨8, _⟩ => ⟨S256, .f32⟩
  | .local _ .vmem, ⟨9, _⟩ => ⟨S256, .f32⟩
  | .local _ .vmem, ⟨10, _⟩ => ⟨S2048x256, .f32⟩
  | .local _ .vmem, ⟨11, _⟩ => ⟨S2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  transposes_S256x4096_p1_0_S4096x256 : S256x4096.Transposes [1, 0] S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  shapeCasts_S4096x256_S4096x256 : S4096x256.ShapeCasts S4096x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x4096_S4096x256_S2048x256_1_0_0_1_n_n_wf : DotDims.WF S2048x4096 S4096x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11008x4096.size a
  hwx0_0 : ∀ i : grid0.Coords, EltTy.bits .f32 = 32 ∨ (Rect.block (s := S11008x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x11008.size a
  hwx0_1 : ∀ i : grid0.Coords, EltTy.bits .bf16 = 32 ∨ (Rect.block (s := S4096x11008) S4096x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S8192x4096.size a
  hwx1_0 : ∀ i : grid1.Coords, EltTy.bits .bf16 = 32 ∨ (Rect.block (s := S8192x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .bf16 = 32 ∨ (Rect.block (s := S4096x11008) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S11008.size a
  hwx1_2 : ∀ i : grid1.Coords, EltTy.bits .f32 = 32 ∨ (Rect.block (s := S11008) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x11008.size a
  hwx1_3 : ∀ i : grid1.Coords, EltTy.bits .f32 = 32 ∨ (Rect.block (s := S8192x11008) S2048x256.size (cc1_transform_3 i) (hinb1_3 i)).WholeWords (EltTy.packing .f32)

variable [Facts₀]

def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩
abbrev S11008x1 : Shape := ⟨2, ![11008, 1]⟩
abbrev S8192x11008 : Shape := ⟨2, ![8192, 11008]⟩
abbrev S1x11008 : Shape := ⟨2, ![1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S_, .f32⟩
  | .hbm, ⟨5, _⟩ => ⟨S11008, .f32⟩
  | .hbm, ⟨6, _⟩ => ⟨S11008x1, .f32⟩
  | .hbm, ⟨7, _⟩ => ⟨S_, .f32⟩
  | .hbm, ⟨8, _⟩ => ⟨S11008x1, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S11008x4096, .f32⟩
  | .hbm, ⟨13, _⟩ => ⟨S11008x4096, .f32⟩
  | .hbm, ⟨14, _⟩ => ⟨S11008x4096, .f32⟩
  | .hbm, ⟨15, _⟩ => ⟨S8192x11008, .f32⟩
  | .hbm, ⟨16, _⟩ => ⟨S1x11008, .f32⟩
  | .hbm, ⟨17, _⟩ => ⟨S8192x11008, .f32⟩
  | .hbm, ⟨18, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S11008x4096_S11008_d1 : S11008x4096.ReducesTo [1] S11008
  h_S_ : 0 < S_.numel
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.QuantBlock.lean ====
/-
  What the quantizing kernel stores for one tile of 256 weight rows, read at an index.

  The body holds a tile x of 256 rows and 4096 columns. It takes each row's scale — the sum of the absolute values of
  the row divided by 4096 —, keeps the scales as a column, spreads the column and its reciprocal over the 4096 columns,
  multiplies, rounds, scales back, and stores the result TRANSPOSED: entry (k, r) of the stored 4096 × 256 tile is
  round(x(r,k) · (1 / s(r))) · s(r).
-/
import proofs.«115984_j44427141710301_2_alg».proof.Proof.Gen.KernelIdeal.Skeleton
import proofs.«115984_j44427141710301_2_alg».proof.Proof.LibKeepdims
import Idealize.ShloMosaic.Lib.Pipeline.Value
import Idealize.ShloMosaic.Lib.ValueIdx

noncomputable section

namespace Cert.KernelIdeal.QuantBlock

open Idealize.ShloMosaic Idealize.ShloMosaic.ValueIdx Cert.KernelIdeal

variable [Facts]
open Facts₀ Facts

/-- The scale of row `r` of a tile: the mean of the absolute values of its 4096 entries. -/
def tileScale (x : Vec Ideal S256x4096 .f32) (r : Fin 256) : EReal :=
  Ideal.div (∑ k : Fin 4096, FloatOps.absf (F := Ideal) (φ := .f32) (x (ix2 r k))) (Ideal.ofBits .f32 0x45800000#32)

/-- The body's column of scales: the row sums of the absolute values, kept as a column, over 4096. -/
def scaleCol (x : Vec Ideal S256x4096 .f32) : FVec Ideal S256x1 .f32 :=
  divf (shapeCast S256x1 (multiReduction .add [1] S256 (absf x) 0x00000000#32 reduces_S256x4096_S256 (.inl rfl) rfl) shapeCasts_S256_S256x1)
    (broadcast S256x1 (Scalar.ofBits .f32 0x45800000#32))

/-- The column of scales at row `r` is that row's scale. -/
theorem scaleCol_apply (x : Vec Ideal S256x4096 .f32) (r : Fin 256) (u : Fin 1) : scaleCol x (ix2 r u) = tileScale x r := by
  unfold scaleCol tileScale
  show Ideal.div (shapeCast S256x1 _ _ (ix2 r u)) (Ideal.ofBits .f32 0x45800000#32) = _
  rw [Cert.LibKeepdims.shapeCast_a_a1_apply]
  refine congrArg (Ideal.div · _) ?_
  exact Cert.LibKeepdims.multiReduction_add_lastAxis_apply (a := 256) (b := 4096) (absf x) 0x00000000#32
    reduces_S256x4096_S256 (.inl rfl) rfl r

/-- The stored tile at `(k, r)`: the entry `(r, k)` of the loaded tile times the reciprocal of its row's scale,
    rounded, scaled back. -/
theorem pay_apply (x : Vec Ideal S256x4096 .f32) (k : Fin 4096) (r : Fin 256) :
    Gen.k0_pay1 (F := Ideal) x (ix2 k r)
      = FloatOps.roundeven (F := Ideal) (φ := .f32) (x (ix2 r k) * Ideal.div (Ideal.ofBits .f32 0x3F800000#32) (tileScale x r))
          * tileScale x r := by
  unfold Gen.k0_pay1
  dsimp only
  refine (transpose_apply _ _ _ (ix2 k r) (ix2 r k) (fun b => by match b with | ⟨0, _⟩ => rfl | ⟨1, _⟩ => rfl)).trans ?_
  show FloatOps.mulf (FloatOps.roundeven (FloatOps.mulf (x (ix2 r k))
        (broadcastTo S256x4096 (divf (broadcast S256x1 (Scalar.ofBits .f32 0x3F800000#32)) (scaleCol x)) broadcasts_S256x1_S256x4096 (ix2 r k))))
      (broadcastTo S256x4096 (scaleCol x) broadcasts_S256x1_S256x4096 (ix2 r k)) = _
  rw [Cert.LibKeepdims.broadcastTo_a1_ab_apply _ _ r k 0, Cert.LibKeepdims.broadcastTo_a1_ab_apply _ _ r k 0]
  show FloatOps.mulf (FloatOps.roundeven (FloatOps.mulf (x (ix2 r k))
        (Ideal.div (Ideal.ofBits .f32 0x3F800000#32) (scaleCol x (ix2 r 0))))) (scaleCol x (ix2 r 0)) = _
  rw [scaleCol_apply]
  rfl

end Cert.KernelIdeal.QuantBlock

end
-- ==== Proof.QuantSpec.lean ====
/-
  The quantized linear layer, as one function of its three argument arrays on the extended reals.

  A weight matrix W of 11008 rows and 4096 columns is quantized row by row: the row's scale s(o) is the mean of the
  absolute values of its entries, (Σ_k |W(o,k)|) / 4096, and the entry W(o,k) becomes round(W(o,k) / s(o)) · s(o), the
  rounding to the nearest integer with ties to even. The layer's output at (t, o) is Σ_k X(t,k) · Q(o,k) + b(o).

  A program may instead multiply by the reciprocal: round(W(o,k) · (1 / s(o))) · s(o). On the extended reals, with the
  quotient's conventions at a zero divisor, the two agree for EVERY value of the scale: off zero a quotient IS the
  product with the reciprocal, and at a zero scale both are a product with zero. No finiteness is needed.
-/
import Idealize.ShloMosaic.PureOps.Ideal
import Idealize.ShloMosaic.PureOps.Ideal.Laws
import Idealize.ShloMosaic.Lib.ValueIdx

noncomputable section

namespace Cert.QuantLinear

open Idealize.ShloMosaic Idealize.ShloMosaic.ValueIdx

/-- Whatever is applied to the quotient, the result scaled back by the divisor is the same for the quotient `x / y`
    and for the product `x · (1 / y)`: for `y ≠ 0` the two arguments are equal, and for `y = 0` both sides are a
    product with zero. -/
theorem scaled_back_recip (f : EReal → EReal) (x y : EReal) :
    f (x * Ideal.div 1 y) * y = f (Ideal.div x y) * y := by
  by_cases hy : y = 0
  · subst hy; rw [mul_zero, mul_zero]
  · unfold Ideal.div; rw [if_neg hy, if_neg hy, one_mul]

/-- The f32 word of `1.0` denotes `1`. -/
theorem ofBits_one : Ideal.ofBits .f32 0x3F800000#32 = 1 := by
  simp [Ideal.ofBits, Ideal.ieee]
  rw [← EReal.coe_mul, ← EReal.coe_one]
  exact congrArg _ (by norm_num)

/-- The scale of row `o`: the mean of the absolute values of its 4096 entries. -/
def rowScale (W : (⟨2, ![11008, 4096]⟩ : Shape).Idx → EReal) (o : Fin 11008) : EReal :=
  Ideal.div (∑ k : Fin 4096, FloatOps.absf (F := Ideal) (φ := .f32) (W (ix2 o k))) (Ideal.ofBits .f32 0x45800000#32)

/-- The quantized entry `(o, k)`: the entry over its row's scale, rounded to the nearest integer (ties to even),
    scaled back. -/
def quant (W : (⟨2, ![11008, 4096]⟩ : Shape).Idx → EReal) (o : Fin 11008) (k : Fin 4096) : EReal :=
  FloatOps.roundeven (F := Ideal) (φ := .f32) (Ideal.div (W (ix2 o k)) (rowScale W o)) * rowScale W o

/-- The same entry computed with the reciprocal of the scale. -/
theorem quant_recip (W : (⟨2, ![11008, 4096]⟩ : Shape).Idx → EReal) (o : Fin 11008) (k : Fin 4096) :
    FloatOps.roundeven (F := Ideal) (φ := .f32) (W (ix2 o k) * Ideal.div (Ideal.ofBits .f32 0x3F800000#32) (rowScale W o)) * rowScale W o
      = quant W o k := by
  rw [ofBits_one]
  exact scaled_back_recip (FloatOps.roundeven (F := Ideal) (φ := .f32)) _ _

/-- The quantized weight laid out transposed, 4096 by 11008: entry `(k, o)` is the quantized `(o, k)`. -/
def quantT (W : (⟨2, ![11008, 4096]⟩ : Shape).Idx → EReal) : (⟨2, ![4096, 11008]⟩ : Shape).Idx → EReal :=
  fun j => quant W (j 1) (j 0)

/-- A linear layer whose weight is given transposed: at `(t, o)`, `Σ_k X(t,k) · Q(k,o) + b(o)`. -/
def linearT (X : (⟨2, ![8192, 4096]⟩ : Shape).Idx → EReal) (Q : (⟨2, ![4096, 11008]⟩ : Shape).Idx → EReal)
    (b : (⟨1, ![11008]⟩ : Shape).Idx → EReal) : (⟨2, ![8192, 11008]⟩ : Shape).Idx → EReal :=
  fun i => (∑ k : Fin 4096, X (ix2 (i 0) k) * Q (ix2 k (i 1))) + b (ix1 (i 1))

/-- The quantized linear layer: the output as one function of the activations, the weight and the bias. -/
def quantLinear (X : (⟨2, ![8192, 4096]⟩ : Shape).Idx → EReal) (W : (⟨2, ![11008, 4096]⟩ : Shape).Idx → EReal)
    (b : (⟨1, ![11008]⟩ : Shape).Idx → EReal) : (⟨2, ![8192, 11008]⟩ : Shape).Idx → EReal :=
  linearT X (quantT W) b

end Cert.QuantLinear

end
-- ==== Proof.QuantArray.lean ====
/-
  The array the quantizing launch leaves: the quantized weight, transposed.

  The launch walks 43 tiles of 256 weight rows. At tile n it reads rows 256n … 256n + 255 of the weight (all 4096
  columns) and writes back columns 256n … 256n + 255 of the 4096 × 11008 result (all 4096 rows). A row's scale depends
  on that row alone, and the whole row is in the tile, so what tile n writes is the matching block of ONE function of
  the weight: entry (k, o) is the quantized (o, k). The 43 blocks tile the result, so the result ends holding that
  function. Stated for any contents the launch may find in its buffers.
-/
import proofs.«115984_j44427141710301_2_alg».proof.Proof.Gen.KernelIdeal.Frame
import proofs.«115984_j44427141710301_2_alg».proof.Proof.QuantBlock
import proofs.«115984_j44427141710301_2_alg».proof.Proof.QuantSpec
import Idealize.ShloMosaic.Lib.Pipeline.Value

noncomputable section

namespace Cert.KernelIdeal.QuantArray

open Idealize.ShloMosaic Idealize.ShloMosaic.TcCoe Idealize.ShloMosaic.ValueIdx Idealize.SL.Sem
open Idealize.ShloMosaic.Pipeline (Dat)
open Cert.KernelIdeal Cert.KernelIdeal.Gen Cert.QuantLinear

variable (V : (c : Dev nD) → (b : Ref sig .tc) → Buf (Elt Ideal) ((c : Thread nD τ).loc b))

theorem offsets_zero : (![0, 0] : Fin 2 → Nat) = fun _ => 0 := funext fun a => by fin_cases a <;> rfl

/-- Tile `n` reads the weight's block `(n, 0)` and writes the result's block `(0, n)`. -/
theorem tile_blocks : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- A tile that holds rows `256n …` of the weight stores, at `(k, r)`, the quantized entry `(256n + r, k)`: the row's
    scale is computed from the tile's row, which is the weight's whole row. -/
theorem tile_quant (W : S11008x4096.Idx → EReal) (x : Vec Ideal S256x4096 .f32) (n : Nat) (hn : n < 43)
    (hx : ∀ (r : Fin 256) (k : Fin 4096), x (ix2 r k) = W (ix2 ⟨n * 256 + r.val, by have := r.isLt; omega⟩ k))
    (k : Fin 4096) (r : Fin 256) :
    k0_pay1 (F := Ideal) x (ix2 k r) = quantT W (ix2 k ⟨n * 256 + r.val, by have := r.isLt; omega⟩) := by
  rw [QuantBlock.pay_apply]
  have hs : QuantBlock.tileScale x r = rowScale W ⟨n * 256 + r.val, by have := r.isLt; omega⟩ := by
    unfold QuantBlock.tileScale rowScale
    refine congrArg (Ideal.div · _) (Finset.sum_congr rfl fun k _ => ?_)
    rw [hx]
  rw [hs, hx]
  exact quant_recip W _ k

/-- What tile `t` writes back is block `t` of the transposed quantized weight, of the weight as the launch finds it. -/
theorem flushed_eq (c : Dev nD) (t : Fin cfg0.N) :
    (dat0 V c).flushed 1 t = ((cfg0.win 1).blk t).view.read (Elt Ideal) (quantT (V c main_arg1)) := by
  show (cfg0.win 1).cut (grid0.coords t) ((dat0 V c).after 1 t) = _
  rw [after0_1]
  unfold out0_1
  rw [View.canon_unit_zero offsets_zero]
  simp only [View.ld_unit_zero (S := S256x4096) offsets_zero]
  obtain ⟨e0, e1, e2, e3⟩ := tile_blocks t
  have ht : t.val < 43 := by have h := t.isLt; have e : cfg0.N = 43 := N_0; omega
  have key : ∀ (k : Fin 4096) (r : Fin 256), k0_pay1 (F := Ideal) (iblk0 V c 0 t) (ix2 k r)
      = quantT (V c main_arg1) (((cfg0.win 1).blk t).view.emb (ix2 k r)) := by
    intro k r
    refine (tile_quant (V c main_arg1) (iblk0 V c 0 t) t.val ht ?_ k r).trans ?_
    · intro r k
      unfold iblk0
      rw [View.read_apply]
      show V c main_arg1 (((cfg0.win 0).blk t).view.emb (ix2 r k)) = _
      refine congrArg (V c main_arg1) (funext fun a => Fin.ext ?_)
      match a with
      | ⟨0, _⟩ => show win0_0.index t (0 : Fin 2) * 256 + 1 * r.val = t.val * 256 + r.val; rw [e0]; omega
      | ⟨1, _⟩ => show win0_0.index t (1 : Fin 2) * 4096 + 1 * k.val = k.val; rw [e1]; omega
    · refine congrArg (quantT (V c main_arg1)) (funext fun a => Fin.ext ?_)
      match a with
      | ⟨0, _⟩ => show k.val = win0_1.index t (0 : Fin 2) * 4096 + 1 * k.val; rw [e2]; omega
      | ⟨1, _⟩ => show t.val * 256 + r.val = win0_1.index t (1 : Fin 2) * 256 + 1 * r.val; rw [e3]; omega
  funext j
  have hj : j = (ix2 (j 0) (j 1) : S4096x256.Idx) := eq_ix2 (n0 := 4096) (n1 := 256) j
  rw [hj]
  exact key (j 0) (j 1)

/-- An index of the result is in tile `t`'s block iff each coordinate is in the block's range on its axis. -/
theorem mem_blk (t : Fin cfg0.N) (i : S4096x11008.Idx) :
    i ∈ ((cfg0.win 1).blk t).view.set ↔ ∀ a : Fin 2, win0_1.index t a * S4096x256.size a ≤ (i a).val
      ∧ (i a).val < win0_1.index t a * S4096x256.size a + S4096x256.size a := by
  show i ∈ ((View.whole main_v0).slice (win0_1.rect t)).set ↔ _
  rw [View.set_slice_whole, Rect.mem_set_unit]
  exact Iff.rfl

/-- Every index of the result is in some tile's block: column `o` belongs to tile `o / 256`. -/
theorem cover (i : S4096x11008.Idx) :
    ∃ t : Fin cfg0.N, (cfg0.win 1).flush t = true ∧ i ∈ ((cfg0.win 1).blk t).view.set := by
  have h0 : (i 0).val < 4096 := (i 0).isLt
  have h1 : (i 1).val < 11008 := (i 1).isLt
  have hN : cfg0.N = 43 := N_0
  let t : Fin cfg0.N := ⟨(i 1).val / 256, by rw [hN]; omega⟩
  obtain ⟨e0, e1, e2, e3⟩ := tile_blocks t
  have e3' : win0_1.index t (1 : Fin 2) = (i 1).val / 256 := e3
  refine ⟨t, flush0_1 t, ?_⟩
  rw [mem_blk]
  intro a
  match a with
  | ⟨0, _⟩ =>
    show win0_1.index t (0 : Fin 2) * 4096 ≤ (i 0).val ∧ (i 0).val < win0_1.index t (0 : Fin 2) * 4096 + 4096
    rw [e2]; omega
  | ⟨1, _⟩ =>
    show win0_1.index t (1 : Fin 2) * 256 ≤ (i 1).val ∧ (i 1).val < win0_1.index t (1 : Fin 2) * 256 + 256
    rw [e3']; omega

/-- The result array after the launch: the transposed quantized weight, of the weight as the launch finds it. -/
theorem final (c : Dev nD) : (dat0 V c).arrAt 1 cfg0.N = quantT (V c main_arg1) :=
  (dat0 V c).arrAt_eq_of_cover 1 (quantT (V c main_arg1)) (fun t _ => flushed_eq V c t) cover

end Cert.KernelIdeal.QuantArray

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.GemmBlock.lean ====
/-
  What the matrix-product kernel stores for one output tile, read at an index.

  The body holds 2048 rows of the activations (all 4096 columns), 256 columns of the transposed quantized weight (all
  4096 rows) and the 256 matching entries of the bias. It multiplies the two tiles into a zero accumulator and adds the
  bias, spread over the rows: entry (p, q) of the stored 2048 × 256 tile is Σ_k x(p,k) · w(k,q) + b(q).
-/
import proofs.«115984_j44427141710301_2_alg».proof.Proof.Gen.KernelIdeal.Skeleton
import proofs.«115984_j44427141710301_2_alg».proof.Proof.LibPlainMatmul
import Idealize.ShloMosaic.Lib.Pipeline.Value
import Idealize.ShloMosaic.Lib.ValueIdx
import Idealize.ShloMosaic.Lib.ValueLayout

noncomputable section

namespace Cert.KernelIdeal.GemmBlock

open Idealize.ShloMosaic Idealize.ShloMosaic.ValueIdx Cert.KernelIdeal

variable [Facts]
open Facts₀ Facts

/-- The stored tile at `(p, q)`: row `p` of the activation tile against column `q` of the weight tile, plus the
    bias entry `q`. -/
theorem pay_apply (x : FVec Ideal S2048x4096 .bf16) (w : FVec Ideal S4096x256 .bf16) (b : FVec Ideal S256 .f32)
    (p : Fin 2048) (q : Fin 256) :
    Gen.k1_pay1 (F := Ideal) x w b (ix2 p q) = (∑ k : Fin 4096, x (ix2 p k) * w (ix2 k q)) + b (ix1 q) := by
  unfold Gen.k1_pay1
  rw [shapeCast_self, shapeCast_self]
  show FloatOps.matmul dot_S2048x4096_S4096x256_S2048x256_1_0_0_1_n_n none x w (constant S2048x256 .f32 0x00000000#32) (ix2 p q)
      + broadcastTo S2048x256 (shapeCast S1x256 b shapeCasts_S256_S1x256) broadcasts_S1x256_S2048x256 (ix2 p q) = _
  rw [broadcastTo_1b_ab_apply _ _ p q, shapeCast_a_1a_apply]
  exact congrArg (· + b (ix1 q)) (matmul_plain_zero_apply 2048 4096 256 none x w p q)

end Cert.KernelIdeal.GemmBlock

end
-- ==== Proof.GemmArray.lean ====
/-
  The array the matrix-product launch leaves: a linear layer of the three arrays it reads.

  The launch walks a 4 × 43 grid of output tiles, 2048 rows by 256 columns. At tile (m, n) it reads rows 2048m … of the
  activations (all 4096 columns), columns 256n … of the transposed weight (all 4096 rows) and entries 256n … of the
  bias, and writes back block (m, n) of the 8192 × 11008 result. The whole contraction axis is in the tiles, so what
  tile (m, n) writes is the matching block of ONE function of the three arrays: Σ_k X(t,k) · Q(k,o) + b(o). The 172
  blocks tile the result, so the result ends holding that function. Stated for any contents the launch may find.
-/
import proofs.«115984_j44427141710301_2_alg».proof.Proof.Gen.KernelIdeal.Frame
import proofs.«115984_j44427141710301_2_alg».proof.Proof.GemmBlock
import proofs.«115984_j44427141710301_2_alg».proof.Proof.QuantSpec
import Idealize.ShloMosaic.Lib.Pipeline.Value

noncomputable section

namespace Cert.KernelIdeal.GemmArray

open Idealize.ShloMosaic Idealize.ShloMosaic.TcCoe Idealize.ShloMosaic.ValueIdx Idealize.SL.Sem
open Idealize.ShloMosaic.Pipeline (Dat)
open Cert.KernelIdeal Cert.KernelIdeal.Gen Cert.QuantLinear

variable (V : (c : Dev nD) → (b : Ref sig .tc) → Buf (Elt Ideal) ((c : Thread nD τ).loc b))

theorem offsets_zero2 : (![0, 0] : Fin 2 → Nat) = fun _ => 0 := funext fun a => by fin_cases a <;> rfl
theorem offsets_zero1 : (![0] : Fin 1 → Nat) = fun _ => 0 := funext fun a => by fin_cases a <;> rfl

/-- Point `t` of the grid is tile `(t / 43, t % 43)`: it reads the activations' block `(m, 0)`, the weight's block
    `(0, n)`, the bias's block `n`, and writes the result's block `(m, n)`. -/
theorem tile_blocks : ∀ t : Fin cfg1.N, win1_0.index t (0 : Fin 2) = t.val / 43 ∧ win1_0.index t (1 : Fin 2) = 0
    ∧ win1_1.index t (0 : Fin 2) = 0 ∧ win1_1.index t (1 : Fin 2) = t.val % 43
    ∧ win1_2.index t (0 : Fin 1) = t.val % 43
    ∧ win1_3.index t (0 : Fin 2) = t.val / 43 ∧ win1_3.index t (1 : Fin 2) = t.val % 43 :=
  (by decide +kernel : ∀ t : Fin grid1.N, _)

/-- A point whose tiles hold rows `2048m …` of `X`, columns `256n …` of `Q` and entries `256n …` of `B` stores, at
    `(p, q)`, the linear layer's entry `(2048m + p, 256n + q)`. -/
theorem tile_linear (X : S8192x4096.Idx → EReal) (Q : S4096x11008.Idx → EReal) (B : S11008.Idx → EReal)
    (x : FVec Ideal S2048x4096 .bf16) (w : FVec Ideal S4096x256 .bf16) (b : FVec Ideal S256 .f32)
    (mi ni : Nat) (hm : mi < 4) (hn : ni < 43)
    (hx : ∀ (p : Fin 2048) (k : Fin 4096), x (ix2 p k) = X (ix2 ⟨mi * 2048 + p.val, by have := p.isLt; omega⟩ k))
    (hw : ∀ (k : Fin 4096) (q : Fin 256), w (ix2 k q) = Q (ix2 k ⟨ni * 256 + q.val, by have := q.isLt; omega⟩))
    (hb : ∀ q : Fin 256, b (ix1 q) = B (ix1 ⟨ni * 256 + q.val, by have := q.isLt; omega⟩))
    (p : Fin 2048) (q : Fin 256) :
    k1_pay1 (F := Ideal) x w b (ix2 p q)
      = linearT X Q B (ix2 ⟨mi * 2048 + p.val, by have := p.isLt; omega⟩ ⟨ni * 256 + q.val, by have := q.isLt; omega⟩) := by
  rw [GemmBlock.pay_apply, hb]
  show _ = (∑ k : Fin 4096, X (ix2 ⟨mi * 2048 + p.val, _⟩ k) * Q (ix2 k ⟨ni * 256 + q.val, _⟩)) + B (ix1 ⟨ni * 256 + q.val, _⟩)
  refine congrArg (· + _) (Finset.sum_congr rfl fun k _ => ?_)
  rw [hx, hw]

/-- What point `t` writes back is block `t` of the linear layer of the three arrays as the launch finds them. -/
theorem flushed_eq (c : Dev nD) (t : Fin cfg1.N) :
    (dat1 V c).flushed 3 t
      = ((cfg1.win 3).blk t).view.read (Elt Ideal) (linearT (V c main_v1) (V c main_v0) (V c main_arg2)) := by
  show (cfg1.win 3).cut (grid1.coords t) ((dat1 V c).after 3 t) = _
  rw [after1_3]
  unfold out1_3
  rw [View.canon_unit_zero offsets_zero2]
  simp only [View.ld_unit_zero (S := S2048x4096) offsets_zero2, View.ld_unit_zero (S := S4096x256) offsets_zero2,
    View.ld_unit_zero (S := S256) offsets_zero1]
  obtain ⟨e0, e1, e2, e3, e4, e5, e6⟩ := tile_blocks t
  have ht : t.val < 172 := by have h := t.isLt; have e : cfg1.N = 172 := N_1; omega
  have key : ∀ (p : Fin 2048) (q : Fin 256), k1_pay1 (F := Ideal) (iblk1 V c 0 t) (iblk1 V c 1 t) (iblk1 V c 2 t) (ix2 p q)
      = linearT (V c main_v1) (V c main_v0) (V c main_arg2) (((cfg1.win 3).blk t).view.emb (ix2 p q)) := by
    intro p q
    refine (tile_linear (V c main_v1) (V c main_v0) (V c main_arg2) (iblk1 V c 0 t) (iblk1 V c 1 t) (iblk1 V c 2 t)
      (t.val / 43) (t.val % 43) (by omega) (by omega) ?_ ?_ ?_ p q).trans ?_
    · intro p k
      unfold iblk1
      rw [View.read_apply]
      show V c main_v1 (((cfg1.win 0).blk t).view.emb (ix2 p k)) = _
      refine congrArg (V c main_v1) (funext fun a => Fin.ext ?_)
      match a with
      | ⟨0, _⟩ => show win1_0.index t (0 : Fin 2) * 2048 + 1 * p.val = t.val / 43 * 2048 + p.val; rw [e0]; omega
      | ⟨1, _⟩ => show win1_0.index t (1 : Fin 2) * 4096 + 1 * k.val = k.val; rw [e1]; omega
    · intro k q
      unfold iblk1
      rw [View.read_apply]
      show V c main_v0 (((cfg1.win 1).blk t).view.emb (ix2 k q)) = _
      refine congrArg (V c main_v0) (funext fun a => Fin.ext ?_)
      match a with
      | ⟨0, _⟩ => show win1_1.index t (0 : Fin 2) * 4096 + 1 * k.val = k.val; rw [e2]; omega
      | ⟨1, _⟩ => show win1_1.index t (1 : Fin 2) * 256 + 1 * q.val = t.val % 43 * 256 + q.val; rw [e3]; omega
    · intro q
      unfold iblk1
      rw [View.read_apply]
      show V c main_arg2 (((cfg1.win 2).blk t).view.emb (ix1 q)) = _
      refine congrArg (V c main_arg2) (funext fun a => Fin.ext ?_)
      match a with
      | ⟨0, _⟩ => show win1_2.index t (0 : Fin 1) * 256 + 1 * q.val = t.val % 43 * 256 + q.val; rw [e4]; omega
    · refine congrArg (linearT (V c main_v1) (V c main_v0) (V c main_arg2)) (funext fun a => Fin.ext ?_)
      match a with
      | ⟨0, _⟩ => show t.val / 43 * 2048 + p.val = win1_3.index t (0 : Fin 2) * 2048 + 1 * p.val; rw [e5]; omega
      | ⟨1, _⟩ => show t.val % 43 * 256 + q.val = win1_3.index t (1 : Fin 2) * 256 + 1 * q.val; rw [e6]; omega
  funext j
  have hj : j = (ix2 (j 0) (j 1) : S2048x256.Idx) := eq_ix2 (n0 := 2048) (n1 := 256) j
  rw [hj]
  exact key (j 0) (j 1)

/-- An index of the result is in point `t`'s block iff each coordinate is in the block's range on its axis. -/
theorem mem_blk (t : Fin cfg1.N) (i : S8192x11008.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v2).slice (win1_3.rect t)).set ↔ _
  rw [View.set_slice_whole, Rect.mem_set_unit]
  exact Iff.rfl

/-- Every index of the result is in some point's block: entry `(r, o)` belongs to tile `(r / 2048, o / 256)`, which
    is point `43 · (r / 2048) + o / 256`. -/
theorem cover (i : S8192x11008.Idx) :
    ∃ t : Fin cfg1.N, (cfg1.win 3).flush t = true ∧ i ∈ ((cfg1.win 3).blk t).view.set := by
  have h0 : (i 0).val < 8192 := (i 0).isLt
  have h1 : (i 1).val < 11008 := (i 1).isLt
  have hN : cfg1.N = 172 := N_1
  let t : Fin cfg1.N := ⟨(i 0).val / 2048 * 43 + (i 1).val / 256, by rw [hN]; omega⟩
  obtain ⟨e0, e1, e2, e3, e4, e5, e6⟩ := tile_blocks t
  have e5' : win1_3.index t (0 : Fin 2) = ((i 0).val / 2048 * 43 + (i 1).val / 256) / 43 := e5
  have e6' : win1_3.index t (1 : Fin 2) = ((i 0).val / 2048 * 43 + (i 1).val / 256) % 43 := e6
  refine ⟨t, flush1_3 t, ?_⟩
  rw [mem_blk]
  intro a
  match a with
  | ⟨0, _⟩ =>
    show win1_3.index t (0 : Fin 2) * 2048 ≤ (i 0).val ∧ (i 0).val < win1_3.index t (0 : Fin 2) * 2048 + 2048
    rw [e5']; omega
  | ⟨1, _⟩ =>
    show win1_3.index t (1 : Fin 2) * 256 ≤ (i 1).val ∧ (i 1).val < win1_3.index t (1 : Fin 2) * 256 + 256
    rw [e6']; omega

/-- The result array after the launch: the linear layer of the three arrays as the launch finds them. -/
theorem final (c : Dev nD) :
    (dat1 V c).arrAt 3 cfg1.N = linearT (V c main_v1) (V c main_v0) (V c main_arg2) :=
  (dat1 V c).arrAt_eq_of_cover 3 (linearT (V c main_v1) (V c main_v0) (V c main_arg2)) (fun t _ => flushed_eq V c t) cover

end Cert.KernelIdeal.GemmArray

end
-- ==== Proof.KernelRun.lean ====
/-
  The kernel program's run, with its result named.

  The program is two launches with one host operation between them. The first launch leaves the transposed quantized
  weight (of the weight argument) in an intermediate array; the host operation rounds the activations to a narrower
  format, which on the extended reals is the identity; the second launch reads those two arrays and the bias and leaves
  the linear layer of them in the result array. No launch and no host operation writes an argument. So every weakly
  fair execution terminates with the result array at the quantized linear layer of the three arguments.
-/
import proofs.«115984_j44427141710301_2_alg».proof.Proof.Gen.KernelIdeal.Frame
import proofs.«115984_j44427141710301_2_alg».proof.Proof.QuantArray
import proofs.«115984_j44427141710301_2_alg».proof.Proof.GemmArray

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.QuantLinear

local notation "𝕄" => MT nD τ sig Unit (Elt Ideal) ℕ (UR sig nD τ) ℕ

variable (m : (ℓ : Loc nD τ sig) → Buf (Elt Ideal) ℓ) (ρ : Dev nD → PrngReg)

/-! ## What the second launch finds in the three arrays it reads -/

/-- The rounded activations are the activations: a change of format is the identity on the extended reals, and the
    first launch does not touch the activations. -/
theorem entry_activations (c : Dev nD) :
    (V2 m ρ c main_v1 : S8192x4096.Idx → EReal) = (m ((c : Thread nD τ).loc main_arg0) : S8192x4096.Idx → EReal) := by
  show StableHlo.after hostOps1 (W1 m ρ c) (Proc.devRef .tc main_v1) = _
  after_results
  rw [W1_of_ne m ρ c main_arg0 (by decide)]
  rfl

/-- The intermediate array is what the first launch left: the transposed quantized weight of the weight argument. -/
theorem entry_weight (c : Dev nD) :
    (V2 m ρ c main_v0 : S4096x11008.Idx → EReal) = quantT (m ((c : Thread nD τ).loc main_arg1)) := by
  show StableHlo.after hostOps1 (W1 m ρ c) (Proc.devRef .tc main_v0) = _
  after_results
  refine (W1_arr m ρ c 1).trans ?_
  exact QuantArray.final (V0 m ρ) c

/-- The bias is as launched. -/
theorem entry_bias (c : Dev nD) :
    (V2 m ρ c main_arg2 : S11008.Idx → EReal) = (m ((c : Thread nD τ).loc main_arg2) : S11008.Idx → EReal) := by
  show StableHlo.after hostOps1 (W1 m ρ c) (Proc.devRef .tc main_arg2) = _
  after_results
  exact W1_of_ne m ρ c main_arg2 (by decide)

/-- The result array at the end of the program: the quantized linear layer of the three arguments. -/
theorem result_eq (c : Dev nD) :
    (W3 m ρ c (Proc.devRef .tc main_v2) : S8192x11008.Idx → EReal)
      = quantLinear (m ((c : Thread nD τ).loc main_arg0)) (m ((c : Thread nD τ).loc main_arg1)) (m ((c : Thread nD τ).loc main_arg2)) := by
  refine (W3_arr m ρ c 3).trans ?_
  refine (GemmArray.final (V2 m ρ) c).trans ?_
  unfold quantLinear
  rw [entry_activations m ρ c, entry_weight m ρ c, entry_bias m ρ c]

/-! ## The run -/

set_option backward.isDefEq.respectTransparency.types false in
/-- Every weakly fair execution of the program terminates, nothing faulting, with the result array at the last
    boundary's contents and the arguments as launched: the program as its three segments (the first launch, the host
    operation, the second launch), each launch by its body's obligation at every point, the final state read against
    the last thread state. -/
theorem run_boundary : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The same run with the result read: the result array ends at the quantized linear layer of the three arguments. -/
theorem run : θ_run defs (onTc (τ := τ) (main (F := Ideal))) ⟨m, fun _ => 0, ρ⟩ (fun r => ∀ c : Dev nD,
      r.2.mem ((c.tc : Thread nD τ).loc main_v2)
        = quantLinear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_boundary m ρ)

end Cert.KernelIdeal.Run

end
-- ==== Proof.RefValue.lean ====
/-
  The reference's result is the quantized linear layer.

  The reference takes each weight row's scale as the sum of the row's absolute values (from a zero initial value)
  divided by 4096, kept as a column; divides the weight by the scales spread over the columns, rounds, multiplies back;
  contracts the activations with the quantized weight over the shared axis of 4096; and adds the bias spread over the
  rows. Read index by index, that is the specification as written: the scale of row o, the quantized entry (o, k), and
  Σ_k X(t,k) · Q(o,k) + b(o).
-/
import proofs.«115984_j44427141710301_2_alg».proof.Proof.Gen.ReferenceIdeal.Read
import proofs.«115984_j44427141710301_2_alg».proof.Proof.QuantSpec

noncomputable section

namespace Cert.ReferenceIdeal.RefValue

open Idealize.ShloMosaic Idealize.ShloMosaic.ValueIdx
open Cert.ReferenceIdeal Cert.ReferenceIdeal.Read Cert.QuantLinear

/-- The reference's column of scales at row `o` is that row's scale. -/
theorem scale_eq (W : S11008x4096.Idx → EReal) (o : Fin 11008) (u : Fin 1) :
    val_main_v4 (F := Ideal) W (ix2 o u) = rowScale W o := by
  rw [val_main_v4_apply, val_main_v2_apply, val_main_v1_apply, val_main_v3_apply, val_main_cst_0_apply, val_main_cst_apply]
  unfold rowScale
  show Ideal.div (Ideal.ofBits .f32 0x00000000#32 + ∑ k : Fin 4096, val_main_v0 (F := Ideal) W (idx_main_v1 (idx_main_v2 (ix2 o u)) k))
      (Ideal.ofBits .f32 0x45800000#32) = _
  rw [Ideal.ofBits_zero_f32, zero_add]
  refine congrArg (Ideal.div · _) (Finset.sum_congr rfl fun k _ => ?_)
  rw [val_main_v0_apply]
  exact congrArg (fun z => FloatOps.absf (F := Ideal) (φ := .f32) (W z))
    (funext fun a => Fin.ext (by match a with | ⟨0, _⟩ => rfl | ⟨1, _⟩ => rfl))

/-- The reference's quantized weight at `(o, k)` is the quantized entry. -/
theorem quant_eq (W : S11008x4096.Idx → EReal) (o : Fin 11008) (k : Fin 4096) :
    val_main_v9 (F := Ideal) W (ix2 o k) = quant W o k := by
  have h5 : idx_main_v5 (ix2 o k) = ix2 o (0 : Fin 1) :=
    funext fun a => Fin.ext (by match a with | ⟨0, _⟩ => rfl | ⟨1, _⟩ => rfl)
  have h8 : idx_main_v8 (ix2 o k) = ix2 o (0 : Fin 1) :=
    funext fun a => Fin.ext (by match a with | ⟨0, _⟩ => rfl | ⟨1, _⟩ => rfl)
  rw [val_main_v9_apply, val_main_v7_apply, val_main_v6_apply, val_main_v5_apply, val_main_v8_apply, h5, h8, scale_eq]
  rfl

/-- The reference's result is the quantized linear layer of its three arguments. -/
theorem result_eq (X : S8192x4096.Idx → EReal) (W : S11008x4096.Idx → EReal) (b : S11008.Idx → EReal) :
    val_main_v13 (F := Ideal) X W b = quantLinear X W b := by
  funext i
  obtain ⟨t, o, rfl⟩ : ∃ (t : Fin 8192) (o : Fin 11008), i = ix2 t o := ⟨i 0, i 1, eq_ix2 i⟩
  rw [val_main_v13_apply, val_main_v10_apply, val_main_v12_apply, val_main_v11_apply]
  show (∑ k : Fin 4096, X (lidx_main_v10 (ix2 t o) k) * val_main_v9 (F := Ideal) W (ridx_main_v10 (ix2 t o) k))
      + b (idx_main_v11 (idx_main_v12 (ix2 t o))) = (∑ k : Fin 4096, X (ix2 t k) * quantT W (ix2 k o)) + b (ix1 o)
  refine congrArg₂ (· + ·) (Finset.sum_congr rfl fun k _ => ?_) ?_
  · have hl : lidx_main_v10 (ix2 t o) k = ix2 t k :=
      funext fun a => Fin.ext (by match a with | ⟨0, _⟩ => rfl | ⟨1, _⟩ => rfl)
    have hr : ridx_main_v10 (ix2 t o) k = ix2 o k :=
      funext fun a => Fin.ext (by match a with | ⟨0, _⟩ => rfl | ⟨1, _⟩ => rfl)
    rw [hl, hr, quant_eq]
    rfl
  · exact congrArg b (funext fun a => Fin.ext (by match a with | ⟨0, _⟩ => rfl))

end Cert.ReferenceIdeal.RefValue

end
-- ==== Proof.lean ====
/-
  A quantized linear layer computed by two launches equals the plain one, on the extended reals.

  Both programs take activations X (8192 × 4096), a weight W (11008 × 4096) and a bias b (11008). The reference
  quantizes W row by row — scale s(o) = (Σ_k |W(o,k)|) / 4096, entry round(W(o,k) / s(o)) · s(o) — and returns
  Σ_k X(t,k) · Q(o,k) + b(o). The kernel program first writes the quantized weight TRANSPOSED into an intermediate array,
  tile by tile of 256 rows, multiplying by the reciprocal 1 / s(o) where the reference divides; then multiplies the
  activations by that array tile by tile and adds the bias. Changes of float format are the identity here, a tiled
  product over the whole contraction axis is the product, and the reciprocal form agrees with the quotient form at every
  value of the scale (at a zero scale both entries are a product with zero): Proof/QuantSpec.lean. So both results are
  one function of the arguments, `quantLinear`: the kernel's by Proof/KernelRun.lean (over Proof/QuantArray.lean and
  Proof/GemmArray.lean, each launch's array as one function of what it reads), the reference's by Proof/RefValue.lean.
  The three frames: the two kernel programs' are the generated ones; the reference's is its generated run with the
  result dropped. The idealization rewrote nothing, so `preserves` is trivial. The precondition is not used.
-/
import proofs.«115984_j44427141710301_2_alg».proof.Defs
import proofs.«115984_j44427141710301_2_alg».proof.Proof.Gen.Kernel
import proofs.«115984_j44427141710301_2_alg».proof.Proof.Gen.Kernel.Skeleton
import proofs.«115984_j44427141710301_2_alg».proof.Proof.Gen.Kernel.Launch
import proofs.«115984_j44427141710301_2_alg».proof.Proof.Gen.Kernel.Points
import proofs.«115984_j44427141710301_2_alg».proof.Proof.Gen.Kernel.Frame
import proofs.«115984_j44427141710301_2_alg».proof.Proof.Gen.KernelIdeal
import proofs.«115984_j44427141710301_2_alg».proof.Proof.Gen.KernelIdeal.Skeleton
import proofs.«115984_j44427141710301_2_alg».proof.Proof.Gen.KernelIdeal.Launch
import proofs.«115984_j44427141710301_2_alg».proof.Proof.Gen.KernelIdeal.Points
import proofs.«115984_j44427141710301_2_alg».proof.Proof.Gen.KernelIdeal.Frame
import proofs.«115984_j44427141710301_2_alg».proof.Proof.Gen.ReferenceIdeal
import proofs.«115984_j44427141710301_2_alg».proof.Proof.Gen.Pre_finite_inputs
import proofs.«115984_j44427141710301_2_alg».proof.Proof.Gen.ReferenceIdeal.Run
import proofs.«115984_j44427141710301_2_alg».proof.Proof.Gen.ReferenceIdeal.Read
import proofs.«115984_j44427141710301_2_alg».proof.Proof.KernelRun
import proofs.«115984_j44427141710301_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the three arguments both programs end with the result at the quantized linear layer of
    the arguments: the kernel program by its run, the reference by its run read index by index. -/
theorem algebraic : Cert.algebraic_KernelIdeal_ReferenceIdeal := by
  intro m ρ m' ρ' _ hagree
  refine ⟨fun c => Cert.QuantLinear.quantLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
